-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v13)) (v2 : (c : Dev Cert.KernelIdeal.nD) → Buf (Elt Ideal) ((c.tc : Thread Cert.KernelIdeal.nD Cert.KernelIdeal.τ).loc Cert.KernelIdeal.main_v14)) (v3 : (c : Dev Cert.KernelIdeal.nD) → Buf (Elt Ideal) ((c.tc : Thread Cert.KernelIdeal.nD Cert.KernelIdeal.τ).loc Cert.KernelIdeal.main_v15)) (v4 : (c : Dev Cert.KernelIdeal.nD) → Buf (Elt Ideal) ((c.tc : Thread Cert.KernelIdeal.nD Cert.KernelIdeal.τ).loc Cert.KernelIdeal.main_v16)) (v5 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_v14) = v2 c
          ∧ r.2.mem ((c.tc : Thread Cert.KernelIdeal.nD Cert.KernelIdeal.τ).loc Cert.KernelIdeal.main_v15) = v3 c
          ∧ r.2.mem ((c.tc : Thread Cert.KernelIdeal.nD Cert.KernelIdeal.τ).loc Cert.KernelIdeal.main_v16) = v4 c
          ∧ r.2.mem ((c.tc : Thread Cert.KernelIdeal.nD Cert.KernelIdeal.τ).loc Cert.KernelIdeal.main_v17) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_v10) = v2 c
          ∧ r.2.mem ((c.tc : Thread Cert.ReferenceIdeal.nD Cert.ReferenceIdeal.τ).loc Cert.ReferenceIdeal.main_v13) = v3 c
          ∧ r.2.mem ((c.tc : Thread Cert.ReferenceIdeal.nD Cert.ReferenceIdeal.τ).loc Cert.ReferenceIdeal.main_v20) = v4 c
          ∧ r.2.mem ((c.tc : Thread Cert.ReferenceIdeal.nD Cert.ReferenceIdeal.τ).loc Cert.ReferenceIdeal.main_v23) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S4194304 : Shape := ⟨1, ![4194304]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel
  bcast_S_S4194304 : S_.BroadcastsInDim S4194304 (![] : Fin 0 → Fin S4194304.rank)
  reducesTo_S4194304_S_d0 : S4194304.ReducesTo [0] S_

variable [Facts]

def fn_part3 {F : FTy → Type} [FloatOps F] (main_arg11 : FVec F S4194304 .f32) (main_v48 : IVec S_ 1) (main_v49 : FVec F S4194304 .f32) (main_v50 : FVec F S4194304 .f32) : IVec S_ 1 :=
  let main_v51 : IVec S4194304 1 := cmpf .olt main_v49 main_v50
  let main_c_19 : IVec S_ 1 := constantI S_ 1 1#1
  let main_v52 : IVec S_ 1 := (fun x v => Host.reduce IntOp.andi x v reducesTo_S4194304_S_d0 h_S_) main_v51 main_c_19
  let main_v53 : IVec S_ 1 := andi main_v48 main_v52
  let main_v54 : FVec F S4194304 .f32 := Host.absf main_arg11
  let main_cst_20 : FVec F S_ .f32 := constant S_ .f32 0x7F800000#32
  let main_v55 : FVec F S4194304 .f32 := broadcastInDim S4194304 ![] bcast_S_S4194304 main_cst_20
  let main_v56 : IVec S4194304 1 := cmpf .olt main_v54 main_v55
  let main_c_21 : IVec S_ 1 := constantI S_ 1 1#1
  let main_v57 : IVec S_ 1 := (fun x v => Host.reduce IntOp.andi x v reducesTo_S4194304_S_d0 h_S_) main_v56 main_c_21
  let main_v58 : IVec S_ 1 := andi main_v53 main_v57
  main_v58

def fn_part2 {F : FTy → Type} [FloatOps F] (main_arg7 : FVec F S4194304 .f32) (main_arg8 : FVec F S4194304 .f32) (main_arg9 : FVec F S4194304 .f32) (main_arg10 : FVec F S4194304 .f32) (main_arg11 : FVec F S4194304 .f32) (main_v33 : IVec S_ 1) : IVec S_ 1 :=
  let main_v34 : FVec F S4194304 .f32 := Host.absf main_arg7
  let main_cst_12 : FVec F S_ .f32 := constant S_ .f32 0x7F800000#32
  let main_v35 : FVec F S4194304 .f32 := broadcastInDim S4194304 ![] bcast_S_S4194304 main_cst_12
  let main_v36 : IVec S4194304 1 := cmpf .olt main_v34 main_v35
  let main_c_13 : IVec S_ 1 := constantI S_ 1 1#1
  let main_v37 : IVec S_ 1 := (fun x v => Host.reduce IntOp.andi x v reducesTo_S4194304_S_d0 h_S_) main_v36 main_c_13
  let main_v38 : IVec S_ 1 := andi main_v33 main_v37
  let main_v39 : FVec F S4194304 .f32 := Host.absf main_arg8
  let main_cst_14 : FVec F S_ .f32 := constant S_ .f32 0x7F800000#32
  let main_v40 : FVec F S4194304 .f32 := broadcastInDim S4194304 ![] bcast_S_S4194304 main_cst_14
  let main_v41 : IVec S4194304 1 := cmpf .olt main_v39 main_v40
  let main_c_15 : IVec S_ 1 := constantI S_ 1 1#1
  let main_v42 : IVec S_ 1 := (fun x v => Host.reduce IntOp.andi x v reducesTo_S4194304_S_d0 h_S_) main_v41 main_c_15
  let main_v43 : IVec S_ 1 := andi main_v38 main_v42
  let main_v44 : FVec F S4194304 .f32 := Host.absf main_arg9
  let main_cst_16 : FVec F S_ .f32 := constant S_ .f32 0x7F800000#32
  let main_v45 : FVec F S4194304 .f32 := broadcastInDim S4194304 ![] bcast_S_S4194304 main_cst_16
  let main_v46 : IVec S4194304 1 := cmpf .olt main_v44 main_v45
  let main_c_17 : IVec S_ 1 := constantI S_ 1 1#1
  let main_v47 : IVec S_ 1 := (fun x v => Host.reduce IntOp.andi x v reducesTo_S4194304_S_d0 h_S_) main_v46 main_c_17
  let main_v48 : IVec S_ 1 := andi main_v43 main_v47
  let main_v49 : FVec F S4194304 .f32 := Host.absf main_arg10
  let main_cst_18 : FVec F S_ .f32 := constant S_ .f32 0x7F800000#32
  let main_v50 : FVec F S4194304 .f32 := broadcastInDim S4194304 ![] bcast_S_S4194304 main_cst_18
  fn_part3 (F := F) main_arg11 main_v48 main_v49 main_v50

def fn_part1 {F : FTy → Type} [FloatOps F] (main_arg4 : FVec F S4194304 .f32) (main_arg5 : FVec F S4194304 .f32) (main_arg6 : FVec F S4194304 .f32) (main_arg7 : FVec F S4194304 .f32) (main_arg8 : FVec F S4194304 .f32) (main_arg9 : FVec F S4194304 .f32) (main_arg10 : FVec F S4194304 .f32) (main_arg11 : FVec F S4194304 .f32) (main_v13 : IVec S_ 1) (main_v16 : IVec S4194304 1) : IVec S_ 1 :=
  let main_c_5 : IVec S_ 1 := constantI S_ 1 1#1
  let main_v17 : IVec S_ 1 := (fun x v => Host.reduce IntOp.andi x v reducesTo_S4194304_S_d0 h_S_) main_v16 main_c_5
  let main_v18 : IVec S_ 1 := andi main_v13 main_v17
  let main_v19 : FVec F S4194304 .f32 := Host.absf main_arg4
  let main_cst_6 : FVec F S_ .f32 := constant S_ .f32 0x7F800000#32
  let main_v20 : FVec F S4194304 .f32 := broadcastInDim S4194304 ![] bcast_S_S4194304 main_cst_6
  let main_v21 : IVec S4194304 1 := cmpf .olt main_v19 main_v20
  let main_c_7 : IVec S_ 1 := constantI S_ 1 1#1
  let main_v22 : IVec S_ 1 := (fun x v => Host.reduce IntOp.andi x v reducesTo_S4194304_S_d0 h_S_) main_v21 main_c_7
  let main_v23 : IVec S_ 1 := andi main_v18 main_v22
  let main_v24 : FVec F S4194304 .f32 := Host.absf main_arg5
  let main_cst_8 : FVec F S_ .f32 := constant S_ .f32 0x7F800000#32
  let main_v25 : FVec F S4194304 .f32 := broadcastInDim S4194304 ![] bcast_S_S4194304 main_cst_8
  let main_v26 : IVec S4194304 1 := cmpf .olt main_v24 main_v25
  let main_c_9 : IVec S_ 1 := constantI S_ 1 1#1
  let main_v27 : IVec S_ 1 := (fun x v => Host.reduce IntOp.andi x v reducesTo_S4194304_S_d0 h_S_) main_v26 main_c_9
  let main_v28 : IVec S_ 1 := andi main_v23 main_v27
  let main_v29 : FVec F S4194304 .f32 := Host.absf main_arg6
  let main_cst_10 : FVec F S_ .f32 := constant S_ .f32 0x7F800000#32
  let main_v30 : FVec F S4194304 .f32 := broadcastInDim S4194304 ![] bcast_S_S4194304 main_cst_10
  let main_v31 : IVec S4194304 1 := cmpf .olt main_v29 main_v30
  let main_c_11 : IVec S_ 1 := constantI S_ 1 1#1
  let main_v32 : IVec S_ 1 := (fun x v => Host.reduce IntOp.andi x v reducesTo_S4194304_S_d0 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S1 .f32) (main_arg1 : FVec F S4194304 .f32) (main_arg2 : FVec F S4194304 .f32) (main_arg3 : FVec F S4194304 .f32) (main_arg4 : FVec F S4194304 .f32) (main_arg5 : FVec F S4194304 .f32) (main_arg6 : FVec F S4194304 .f32) (main_arg7 : FVec F S4194304 .f32) (main_arg8 : FVec F S4194304 .f32) (main_arg9 : FVec F S4194304 .f32) (main_arg10 : FVec F S4194304 .f32) (main_arg11 : FVec F S4194304 .f32) : IVec S_ 1 :=
  let main_v0 : FVec F S1 .f32 := Host.absf main_arg0
  let main_cst : FVec F S_ .f32 := constant S_ .f32 0x7F800000#32
  let main_v1 : FVec F S1 .f32 := broadcastInDim S1 ![] bcast_S_S1 main_cst
  let main_v2 : IVec S1 1 := cmpf .olt main_v0 main_v1
  let main_c : IVec S_ 1 := constantI S_ 1 1#1
  let main_v3 : IVec S_ 1 := (fun x v => Host.reduce IntOp.andi x v reducesTo_S1_S_d0 h_S_) main_v2 main_c
  let main_v4 : FVec F S4194304 .f32 := Host.absf main_arg1
  let main_cst_0 : FVec F S_ .f32 := constant S_ .f32 0x7F800000#32
  let main_v5 : FVec F S4194304 .f32 := broadcastInDim S4194304 ![] bcast_S_S4194304 main_cst_0
  let main_v6 : IVec S4194304 1 := cmpf .olt main_v4 main_v5
  let main_c_1 : IVec S_ 1 := constantI S_ 1 1#1
  let main_v7 : IVec S_ 1 := (fun x v => Host.reduce IntOp.andi x v reducesTo_S4194304_S_d0 h_S_) main_v6 main_c_1
  let main_v8 : IVec S_ 1 := andi main_v3 main_v7
  let main_v9 : FVec F S4194304 .f32 := Host.absf main_arg2
  let main_cst_2 : FVec F S_ .f32 := constant S_ .f32 0x7F800000#32
  let main_v10 : FVec F S4194304 .f32 := broadcastInDim S4194304 ![] bcast_S_S4194304 main_cst_2
  let main_v11 : IVec S4194304 1 := cmpf .olt main_v9 main_v10
  let main_c_3 : IVec S_ 1 := constantI S_ 1 1#1
  let main_v12 : IVec S_ 1 := (fun x v => Host.reduce IntOp.andi x v reducesTo_S4194304_S_d0 h_S_) main_v11 main_c_3
  let main_v13 : IVec S_ 1 := andi main_v8 main_v12
  let main_v14 : FVec F S4194304 .f32 := Host.absf main_arg3
  let main_cst_4 : FVec F S_ .f32 := constant S_ .f32 0x7F800000#32
  let main_v15 : FVec F S4194304 .f32 := broadcastInDim S4194304 ![] bcast_S_S4194304 main_cst_4
  let main_v16 : IVec S4194304 1 := cmpf .olt main_v14 main_v15
  fn_part1 (F := F) main_arg4 main_arg5 main_arg6 main_arg7 main_arg8 main_arg9 main_arg10 main_arg11 main_v13 main_v16
-- ==== Kernel.lean ====
abbrev S1 : Shape := ⟨1, ![1]⟩
abbrev S4194304 : Shape := ⟨1, ![4194304]⟩
abbrev S32768x128 : Shape := ⟨2, ![32768, 128]⟩
abbrev S1024x128 : Shape := ⟨2, ![1024, 128]⟩

abbrev nBuf : Space → Nat
  | .hbm => 35
  | .vmem => 34
  | .smem => 0
  | _ => 0

abbrev bufTy : (tb : Table) → Fin (tcTables nBuf tb) → BufTy
  | .hbm, ⟨0, _⟩ => ⟨S1, .f32⟩
  | .hbm, ⟨1, _⟩ => ⟨S4194304, .f32⟩
  | .hbm, ⟨2, _⟩ => ⟨S4194304, .f32⟩
  | .hbm, ⟨3, _⟩ => ⟨S4194304, .f32⟩
  | .hbm, ⟨4, _⟩ => ⟨S4194304, .f32⟩
  | .hbm, ⟨5, _⟩ => ⟨S4194304, .f32⟩
  | .hbm, ⟨6, _⟩ => ⟨S4194304, .f32⟩
  | .hbm, ⟨7, _⟩ => ⟨S4194304, .f32⟩
  | .hbm, ⟨8, _⟩ => ⟨S4194304, .f32⟩
  | .hbm, ⟨9, _⟩ => ⟨S4194304, .f32⟩
  | .hbm, ⟨10, _⟩ => ⟨S4194304, .f32⟩
  | .hbm, ⟨11, _⟩ => ⟨S4194304, .f32⟩
  | .hbm, ⟨12, _⟩ => ⟨S32768x128, .f32⟩
  | .hbm, ⟨13, _⟩ => ⟨S32768x128, .f32⟩
  | .hbm, ⟨14, _⟩ => ⟨S32768x128, .f32⟩
  | .hbm, ⟨15, _⟩ => ⟨S32768x128, .f32⟩
  | .hbm, ⟨16, _⟩ => ⟨S32768x128, .f32⟩
  | .hbm, ⟨17, _⟩ => ⟨S32768x128, .f32⟩
  | .hbm, ⟨18, _⟩ => ⟨S32768x128, .f32⟩
  | .hbm, ⟨19, _⟩ => ⟨S32768x128, .f32⟩
  | .hbm, ⟨20, _⟩ => ⟨S32768x128, .f32⟩
  | .hbm, ⟨21, _⟩ => ⟨S32768x128, .f32⟩
  | .hbm, ⟨22, _⟩ => ⟨S32768x128, .f32⟩
  | .hbm, ⟨23, _⟩ => ⟨S32768x128, .f32⟩
  | .hbm, ⟨24, _⟩ => ⟨S32768x128, .f32⟩
  | .hbm, ⟨25, _⟩ => ⟨S32768x128, .f32⟩
  | .hbm, ⟨26, _⟩ => ⟨S32768x128, .f32⟩
  | .hbm, ⟨27, _⟩ => ⟨S32768x128, .f32⟩
  | .hbm, ⟨28, _⟩ => ⟨S32768x128, .f32⟩
  | .hbm, ⟨29, _⟩ => ⟨S4194304, .f32⟩
  | .hbm, ⟨30, _⟩ => ⟨S4194304, .f32⟩
  | .hbm, ⟨31, _⟩ => ⟨S4194304, .f32⟩
  | .hbm, ⟨32, _⟩ => ⟨S4194304, .f32⟩
  | .hbm, ⟨33, _⟩ => ⟨S4194304, .f32⟩
  | .hbm, ⟨34, _⟩ => ⟨S4194304, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | .local _ .vmem, ⟨20, _⟩ => ⟨S1024x128, .f32⟩
  | .local _ .vmem, ⟨21, _⟩ => ⟨S1024x128, .f32⟩
  | .local _ .vmem, ⟨22, _⟩ => ⟨S1024x128, .f32⟩
  | .local _ .vmem, ⟨23, _⟩ => ⟨S1024x128, .f32⟩
  | .local _ .vmem, ⟨24, _⟩ => ⟨S1024x128, .f32⟩
  | .local _ .vmem, ⟨25, _⟩ => ⟨S1024x128, .f32⟩
  | .local _ .vmem, ⟨26, _⟩ => ⟨S1024x128, .f32⟩
  | .local _ .vmem, ⟨27, _⟩ => ⟨S1024x128, .f32⟩
  | .local _ .vmem, ⟨28, _⟩ => ⟨S1024x128, .f32⟩
  | .local _ .vmem, ⟨29, _⟩ => ⟨S1024x128, .f32⟩
  | .local _ .vmem, ⟨30, _⟩ => ⟨S1024x128, .f32⟩
  | .local _ .vmem, ⟨31, _⟩ => ⟨S1024x128, .f32⟩
  | .local _ .vmem, ⟨32, _⟩ => ⟨S1024x128, .f32⟩
  | .local _ .vmem, ⟨33, _⟩ => ⟨S1024x128, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11_0 : Ref sig .tc := ⟨.hbm, 23, rfl⟩
abbrev main_v11_1 : Ref sig .tc := ⟨.hbm, 24, rfl⟩
abbrev main_v11_2 : Ref sig .tc := ⟨.hbm, 25, rfl⟩
abbrev main_v11_3 : Ref sig .tc := ⟨.hbm, 26, rfl⟩
abbrev main_v11_4 : Ref sig .tc := ⟨.hbm, 27, rfl⟩
abbrev main_v11_5 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  shapeCasts_S4194304_S32768x128 : S4194304.ShapeCasts S32768x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  shapeCasts_S32768x128_S4194304 : S32768x128.ShapeCasts S4194304
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S32768x128.size a
  hwx0_0 : ∀ i : grid0.Coords, EltTy.bits .f32 = 32 ∨ (Rect.block (s := S32768x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S32768x128.size a
  hwx0_1 : ∀ i : grid0.Coords, EltTy.bits .f32 = 32 ∨ (Rect.block (s := S32768x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S32768x128.size a
  hwx0_2 : ∀ i : grid0.Coords, EltTy.bits .f32 = 32 ∨ (Rect.block (s := S32768x128) S1024x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S32768x128.size a
  hwx0_3 : ∀ i : grid0.Coords, EltTy.bits .f32 = 32 ∨ (Rect.block (s := S32768x128) S1024x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S32768x128.size a
  hwx0_4 : ∀ i : grid0.Coords, EltTy.bits .f32 = 32 ∨ (Rect.block (s := S32768x128) S1024x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x128.size a ≤ S32768x128.size a
  hwx0_5 : ∀ i : grid0.Coords, EltTy.bits .f32 = 32 ∨ (Rect.block (s := S32768x128) S1024x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x128.size a ≤ S32768x128.size a
  hwx0_6 : ∀ i : grid0.Coords, EltTy.bits .f32 = 32 ∨ (Rect.block (s := S32768x128) S1024x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x128.size a ≤ S32768x128.size a
  hwx0_7 : ∀ i : grid0.Coords, EltTy.bits .f32 = 32 ∨ (Rect.block (s := S32768x128) S1024x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x128.size a ≤ S32768x128.size a
  hwx0_8 : ∀ i : grid0.Coords, EltTy.bits .f32 = 32 ∨ (Rect.block (s := S32768x128) S1024x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x128.size a ≤ S32768x128.size a
  hwx0_9 : ∀ i : grid0.Coords, EltTy.bits .f32 = 32 ∨ (Rect.block (s := S32768x128) S1024x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x128.size a ≤ S32768x128.size a
  hwx0_10 : ∀ i : grid0.Coords, EltTy.bits .f32 = 32 ∨ (Rect.block (s := S32768x128) S1024x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1024x128.size a ≤ S32768x128.size a
  hwx0_11 : ∀ i : grid0.Coords, EltTy.bits .f32 = 32 ∨ (Rect.block (s := S32768x128) S1024x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1024x128.size a ≤ S32768x128.size a
  hwx0_12 : ∀ i : grid0.Coords, EltTy.bits .f32 = 32 ∨ (Rect.block (s := S32768x128) S1024x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1024x128.size a ≤ S32768x128.size a
  hwx0_13 : ∀ i : grid0.Coords, EltTy.bits .f32 = 32 ∨ (Rect.block (s := S32768x128) S1024x128.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1024x128.size a ≤ S32768x128.size a
  hwx0_14 : ∀ i : grid0.Coords, EltTy.bits .f32 = 32 ∨ (Rect.block (s := S32768x128) S1024x128.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1024x128.size a ≤ S32768x128.size a
  hwx0_15 : ∀ i : grid0.Coords, EltTy.bits .f32 = 32 ∨ (Rect.block (s := S32768x128) S1024x128.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1024x128.size a ≤ S32768x128.size a
  hwx0_16 : ∀ i : grid0.Coords, EltTy.bits .f32 = 32 ∨ (Rect.block (s := S32768x128) S1024x128.size (cc0_transform_16 i) (hinb0_16 i)).WholeWords (EltTy.packing .f32)

variable [Facts₀]

abbrev win0_0 : Pipeline.Window sig grid0 :=
  Pipeline.Window.ofSpec (Memref.whole main_v0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1024x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1024x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1024x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1024x128.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1024x128.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v9) S1024x128.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v10) S1024x128.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v11_0) S1024x128.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v11_1) S1024x128.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v11_2) S1024x128.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v11_3) S1024x128.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v11_4) S1024x128.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v11_5) S1024x128.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S1 : Shape := ⟨1, ![1]⟩
abbrev S4194304 : Shape := ⟨1, ![4194304]⟩

abbrev nBuf : Space → Nat
  | .hbm => 36
  | .vmem => 0
  | .smem => 0
  | _ => 0

abbrev bufTy : (tb : Table) → Fin (tcTables nBuf tb) → BufTy
  | .hbm, ⟨0, _⟩ => ⟨S1, .f32⟩
  | .hbm, ⟨1, _⟩ => ⟨S4194304, .f32⟩
  | .hbm, ⟨2, _⟩ => ⟨S4194304, .f32⟩
  | .hbm, ⟨3, _⟩ => ⟨S4194304, .f32⟩
  | .hbm, ⟨4, _⟩ => ⟨S4194304, .f32⟩
  | .hbm, ⟨5, _⟩ => ⟨S4194304, .f32⟩
  | .hbm, ⟨6, _⟩ => ⟨S4194304, .f32⟩
  | .hbm, ⟨7, _⟩ => ⟨S4194304, .f32⟩
  | .hbm, ⟨8, _⟩ => ⟨S4194304, .f32⟩
  | .hbm, ⟨9, _⟩ => ⟨S4194304, .f32⟩
  | .hbm, ⟨10, _⟩ => ⟨S4194304, .f32⟩
  | .hbm, ⟨11, _⟩ => ⟨S4194304, .f32⟩
  | .hbm, ⟨12, _⟩ => ⟨S4194304, .f32⟩
  | .hbm, ⟨13, _⟩ => ⟨S4194304, .f32⟩
  | .hbm, ⟨14, _⟩ => ⟨S4194304, .f32⟩
  | .hbm, ⟨15, _⟩ => ⟨S4194304, .f32⟩
  | .hbm, ⟨16, _⟩ => ⟨S4194304, .f32⟩
  | .hbm, ⟨17, _⟩ => ⟨S4194304, .f32⟩
  | .hbm, ⟨18, _⟩ => ⟨S4194304, .f32⟩
  | .hbm, ⟨19, _⟩ => ⟨S4194304, .f32⟩
  | .hbm, ⟨20, _⟩ => ⟨S4194304, .f32⟩
  | .hbm, ⟨21, _⟩ => ⟨S4194304, .f32⟩
  | .hbm, ⟨22, _⟩ => ⟨S4194304, .f32⟩
  | .hbm, ⟨23, _⟩ => ⟨S4194304, .f32⟩
  | .hbm, ⟨24, _⟩ => ⟨S4194304, .f32⟩
  | .hbm, ⟨25, _⟩ => ⟨S4194304, .f32⟩
  | .hbm, ⟨26, _⟩ => ⟨S4194304, .f32⟩
  | .hbm, ⟨27, _⟩ => ⟨S4194304, .f32⟩
  | .hbm, ⟨28, _⟩ => ⟨S4194304, .f32⟩
  | .hbm, ⟨29, _⟩ => ⟨S4194304, .f32⟩
  | .hbm, ⟨30, _⟩ => ⟨S4194304, .f32⟩
  | .hbm, ⟨31, _⟩ => ⟨S4194304, .f32⟩
  | .hbm, ⟨32, _⟩ => ⟨S4194304, .f32⟩
  | .hbm, ⟨33, _⟩ => ⟨S4194304, .f32⟩
  | .hbm, ⟨34, _⟩ => ⟨S4194304, .f32⟩
  | .hbm, ⟨35, _⟩ => ⟨S4194304, .f32⟩
  | _, _ => ⟨S1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩

abbrev nD : Nat := 1
abbrev τ : Topo := Topo.v7x

variable {F : FTy → Type} [FloatOps F]

class Facts₀ : Prop where

variable [Facts₀]

class Facts : Prop extends Facts₀ where

variable [Facts]
-- ==== Proof.Formulas.lean ====
/-
  The kernel's six outputs as whole arrays, before the host reshapes them back.

  The eleven operands and six results of the call are all [32768, 128] arrays cut into 32 blocks of 1024 rows; every
  window has the same index map, so point t works on rows 1024·t … 1024·t + 1023 of every array. The body is a tree
  of elementwise operations, so what point t writes back to an output is the restriction to those rows of ONE
  elementwise function of the whole operand arrays; the 32 blocks tile the array, so after the run each output array
  IS that function.  The six functions are the right-hand sides of the compartment model

    dA_depot   = (0 − Ktr)·A_depot
    dA_gut(k)  = Ktr·A_gut(k−1) − Ktr·A_gut(k)          (k = 1, 2, 3; gut(0) is the depot)
    dA_central = Ktr·A_gut3 − (CL/Vc)·A_central − (Q/Vc)·A_central + (Q/Vp)·A_peripheral
    dA_periph  = (Q/Vc)·A_central − (Q/Vp)·A_peripheral

  written once over an arbitrary index type, so that the same text reads a block, a [32768, 128] array and a flat
  [4194304] array.
-/
import proofs.«135026_j5961414607271_1_alg».proof.Proof.Gen.KernelIdeal.Frame
import Idealize.ShloMosaic.Lib.Pipeline.Value
import Idealize.ShloMosaic.Lib.ValueIdx

set_option maxRecDepth 16384

noncomputable section

namespace Cert.KernelIdeal.PK

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]

/-! ## The model's right-hand sides, entry by entry -/

section Formulas
variable {ι : Type}

/-- The depot empties at rate Ktr; the kernel writes the negated rate as 0 − Ktr. -/
def dDepot (ktr aDepot : ι → Elt F .f32) : ι → Elt F .f32 := fun i =>
  FloatOps.mulf (FloatOps.subf (FloatOps.ofBits .f32 0x00000000#32) (ktr i)) (aDepot i)

/-- A transit compartment fills from the one before it and empties into the next, both at rate Ktr. -/
def dTransit (ktr aPrev aThis : ι → Elt F .f32) : ι → Elt F .f32 := fun i =>
  FloatOps.subf (FloatOps.mulf (ktr i) (aPrev i)) (FloatOps.mulf (ktr i) (aThis i))

/-- The central compartment: inflow from the last transit compartment, elimination at CL/Vc, exchange with the
    peripheral compartment at Q/Vc out and Q/Vp back; summed left to right as written. -/
def dCentral (ktr aGut3 aCen aPer cl q vc vp : ι → Elt F .f32) : ι → Elt F .f32 := fun i =>
  FloatOps.addf
    (FloatOps.subf
      (FloatOps.subf (FloatOps.mulf (ktr i) (aGut3 i)) (FloatOps.mulf (FloatOps.divf (cl i) (vc i)) (aCen i)))
      (FloatOps.mulf (FloatOps.divf (q i) (vc i)) (aCen i)))
    (FloatOps.mulf (FloatOps.divf (q i) (vp i)) (aPer i))

/-- The peripheral compartment: what the central one sends minus what it returns. -/
def dPeripheral (aCen aPer q vc vp : ι → Elt F .f32) : ι → Elt F .f32 := fun i =>
  FloatOps.subf (FloatOps.mulf (FloatOps.divf (q i) (vc i)) (aCen i)) (FloatOps.mulf (FloatOps.divf (q i) (vp i)) (aPer i))

end Formulas

/-! ## The body's stored values are those formulas of the loaded blocks -/

theorem stored_depot (ktr aDepot : Vec F S1024x128 .f32) : k0_pay17 ktr aDepot = dDepot ktr aDepot := by
  unfold k0_pay17 k0_pay5 k0_pay8
  simp only [shapeCast_self]
  rfl

theorem stored_gut1 (ktr aDepot aGut1 : Vec F S1024x128 .f32) : k0_pay18 ktr aDepot aGut1 = dTransit ktr aDepot aGut1 := by
  unfold k0_pay18 k0_pay5 k0_pay8 k0_pay9
  simp only [shapeCast_self]
  rfl

theorem stored_gut2 (ktr aGut1 aGut2 : Vec F S1024x128 .f32) :
    k0_pay1 (k0_pay5 ktr) (k0_pay9 aGut1) (k0_pay10 aGut2) = dTransit ktr aGut1 aGut2 := by
  unfold k0_pay1 k0_pay5 k0_pay9 k0_pay10
  simp only [shapeCast_self]
  rfl

theorem stored_gut3 (ktr aGut2 aGut3 : Vec F S1024x128 .f32) :
    k0_pay2 (k0_pay5 ktr) (k0_pay10 aGut2) (k0_pay11 aGut3) = dTransit ktr aGut2 aGut3 := by
  unfold k0_pay2 k0_pay5 k0_pay10 k0_pay11
  simp only [shapeCast_self]
  rfl

theorem stored_central (ktr aGut3 aCen aPer cl q vc vp : Vec F S1024x128 .f32) :
    k0_pay3 (k0_pay5 ktr) (k0_pay11 aGut3) (k0_pay12 aCen) (k0_pay13 aPer) (k0_pay14 cl vc) (k0_pay15 q vc) (k0_pay16 q vp)
      = dCentral ktr aGut3 aCen aPer cl q vc vp := by
  unfold k0_pay3 k0_pay5 k0_pay11 k0_pay12 k0_pay13 k0_pay14 k0_pay15 k0_pay16 k0_pay6 k0_pay7
  simp only [shapeCast_self]
  rfl

theorem stored_peripheral (aCen aPer q vc vp : Vec F S1024x128 .f32) :
    k0_pay4 (k0_pay12 aCen) (k0_pay13 aPer) (k0_pay15 q vc) (k0_pay16 q vp) = dPeripheral aCen aPer q vc vp := by
  unfold k0_pay4 k0_pay12 k0_pay13 k0_pay15 k0_pay16 k0_pay6 k0_pay7
  simp only [shapeCast_self]
  rfl

end Cert.KernelIdeal.PK

end
-- ==== Proof.Rows.lean ====
/-
  Where a block sits in its array.  Every one of the 17 windows (11 operands, 6 results) is a [32768, 128] array read
  in 32 blocks of [1024, 128] with index map t ↦ (t, 0): entry (r, l) of block t is entry (1024·t + r, l) of the
  array, and every entry of the array lies in exactly the block t = row / 1024.
-/
import proofs.«135026_j5961414607271_1_alg».proof.Proof.Gen.KernelIdeal.Frame
import Idealize.ShloMosaic.Lib.Pipeline.Value
import Idealize.ShloMosaic.Lib.ValueIdx

set_option maxRecDepth 16384

noncomputable section

namespace Cert.KernelIdeal.PK

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]

/-- The grid has 32 points. -/
theorem point_lt (t : Fin cfg0.N) : t.val < 32 := lt_of_lt_of_eq t.isLt N_0

/-- Entry `y` of block `t`, as an entry of the whole array: row 1024·t + (row in the block), same lane. -/
def row (t : Fin cfg0.N) (y : S1024x128.Idx) : S32768x128.Idx :=
  ix2 ⟨t.val * 1024 + (y 0).val, by have := point_lt t; have := idx2_lt0 y; omega⟩ (y 1)

/-- Every entry of the array is an entry of some block: row = 1024·(row / 1024) + row % 1024. -/
theorem row_onto (i : S32768x128.Idx) : ∃ (t : Fin cfg0.N) (y : S1024x128.Idx), row t y = i := by
  have h0 : (i 0).val < 32768 := idx2_lt0 i
  refine ⟨⟨(i 0).val / 1024, by rw [show cfg0.N = 32 from N_0]; omega⟩, ix2 ⟨(i 0).val % 1024, by omega⟩ (i 1), ?_⟩
  funext a
  match a with
  | ⟨0, _⟩ => apply Fin.ext; show (i 0).val / 1024 * 1024 + (i 0).val % 1024 = (i 0).val; omega
  | ⟨1, _⟩ => rfl

/-! ## The printed index maps, decided over the 32 points: block index (t, 0) for every window -/

theorem idx_0 : ∀ t : Fin cfg0.N, win0_0.index t (0 : Fin 2) = t.val ∧ win0_0.index t (1 : Fin 2) = 0 :=
  (by decide +kernel : ∀ t : Fin grid0.N, _)
theorem idx_1 : ∀ t : Fin cfg0.N, win0_1.index t (0 : Fin 2) = t.val ∧ win0_1.index t (1 : Fin 2) = 0 :=
  (by decide +kernel : ∀ t : Fin grid0.N, _)
theorem idx_2 : ∀ t : Fin cfg0.N, win0_2.index t (0 : Fin 2) = t.val ∧ win0_2.index t (1 : Fin 2) = 0 :=
  (by decide +kernel : ∀ t : Fin grid0.N, _)
theorem idx_3 : ∀ t : Fin cfg0.N, win0_3.index t (0 : Fin 2) = t.val ∧ win0_3.index t (1 : Fin 2) = 0 :=
  (by decide +kernel : ∀ t : Fin grid0.N, _)
theorem idx_4 : ∀ t : Fin cfg0.N, win0_4.index t (0 : Fin 2) = t.val ∧ win0_4.index t (1 : Fin 2) = 0 :=
  (by decide +kernel : ∀ t : Fin grid0.N, _)
theorem idx_5 : ∀ t : Fin cfg0.N, win0_5.index t (0 : Fin 2) = t.val ∧ win0_5.index t (1 : Fin 2) = 0 :=
  (by decide +kernel : ∀ t : Fin grid0.N, _)
theorem idx_6 : ∀ t : Fin cfg0.N, win0_6.index t (0 : Fin 2) = t.val ∧ win0_6.index t (1 : Fin 2) = 0 :=
  (by decide +kernel : ∀ t : Fin grid0.N, _)
theorem idx_7 : ∀ t : Fin cfg0.N, win0_7.index t (0 : Fin 2) = t.val ∧ win0_7.index t (1 : Fin 2) = 0 :=
  (by decide +kernel : ∀ t : Fin grid0.N, _)
theorem idx_8 : ∀ t : Fin cfg0.N, win0_8.index t (0 : Fin 2) = t.val ∧ win0_8.index t (1 : Fin 2) = 0 :=
  (by decide +kernel : ∀ t : Fin grid0.N, _)
theorem idx_9 : ∀ t : Fin cfg0.N, win0_9.index t (0 : Fin 2) = t.val ∧ win0_9.index t (1 : Fin 2) = 0 :=
  (by decide +kernel : ∀ t : Fin grid0.N, _)
theorem idx_10 : ∀ t : Fin cfg0.N, win0_10.index t (0 : Fin 2) = t.val ∧ win0_10.index t (1 : Fin 2) = 0 :=
  (by decide +kernel : ∀ t : Fin grid0.N, _)
theorem idx_11 : ∀ t : Fin cfg0.N, win0_11.index t (0 : Fin 2) = t.val ∧ win0_11.index t (1 : Fin 2) = 0 :=
  (by decide +kernel : ∀ t : Fin grid0.N, _)
theorem idx_12 : ∀ t : Fin cfg0.N, win0_12.index t (0 : Fin 2) = t.val ∧ win0_12.index t (1 : Fin 2) = 0 :=
  (by decide +kernel : ∀ t : Fin grid0.N, _)
theorem idx_13 : ∀ t : Fin cfg0.N, win0_13.index t (0 : Fin 2) = t.val ∧ win0_13.index t (1 : Fin 2) = 0 :=
  (by decide +kernel : ∀ t : Fin grid0.N, _)
theorem idx_14 : ∀ t : Fin cfg0.N, win0_14.index t (0 : Fin 2) = t.val ∧ win0_14.index t (1 : Fin 2) = 0 :=
  (by decide +kernel : ∀ t : Fin grid0.N, _)
theorem idx_15 : ∀ t : Fin cfg0.N, win0_15.index t (0 : Fin 2) = t.val ∧ win0_15.index t (1 : Fin 2) = 0 :=
  (by decide +kernel : ∀ t : Fin grid0.N, _)
theorem idx_16 : ∀ t : Fin cfg0.N, win0_16.index t (0 : Fin 2) = t.val ∧ win0_16.index t (1 : Fin 2) = 0 :=
  (by decide +kernel : ∀ t : Fin grid0.N, _)

/-! ## So each window's block embeds by `row`: a block coordinate is index × size + 1 × the coordinate inside -/

theorem emb_0 (t : Fin cfg0.N) (y : S1024x128.Idx) : ((cfg0.win 0).blk t).view.emb y = row t y := by
  obtain ⟨e0, e1⟩ := idx_0 t
  funext a; apply Fin.ext
  match a with
  | ⟨0, _⟩ => show win0_0.index t (0 : Fin 2) * 1024 + 1 * (y 0).val = t.val * 1024 + (y 0).val; omega
  | ⟨1, _⟩ => show win0_0.index t (1 : Fin 2) * 128 + 1 * (y 1).val = (y 1).val; omega
theorem emb_1 (t : Fin cfg0.N) (y : S1024x128.Idx) : ((cfg0.win 1).blk t).view.emb y = row t y := by
  obtain ⟨e0, e1⟩ := idx_1 t
  funext a; apply Fin.ext
  match a with
  | ⟨0, _⟩ => show win0_1.index t (0 : Fin 2) * 1024 + 1 * (y 0).val = t.val * 1024 + (y 0).val; omega
  | ⟨1, _⟩ => show win0_1.index t (1 : Fin 2) * 128 + 1 * (y 1).val = (y 1).val; omega
theorem emb_2 (t : Fin cfg0.N) (y : S1024x128.Idx) : ((cfg0.win 2).blk t).view.emb y = row t y := by
  obtain ⟨e0, e1⟩ := idx_2 t
  funext a; apply Fin.ext
  match a with
  | ⟨0, _⟩ => show win0_2.index t (0 : Fin 2) * 1024 + 1 * (y 0).val = t.val * 1024 + (y 0).val; omega
  | ⟨1, _⟩ => show win0_2.index t (1 : Fin 2) * 128 + 1 * (y 1).val = (y 1).val; omega
theorem emb_3 (t : Fin cfg0.N) (y : S1024x128.Idx) : ((cfg0.win 3).blk t).view.emb y = row t y := by
  obtain ⟨e0, e1⟩ := idx_3 t
  funext a; apply Fin.ext
  match a with
  | ⟨0, _⟩ => show win0_3.index t (0 : Fin 2) * 1024 + 1 * (y 0).val = t.val * 1024 + (y 0).val; omega
  | ⟨1, _⟩ => show win0_3.index t (1 : Fin 2) * 128 + 1 * (y 1).val = (y 1).val; omega
theorem emb_4 (t : Fin cfg0.N) (y : S1024x128.Idx) : ((cfg0.win 4).blk t).view.emb y = row t y := by
  obtain ⟨e0, e1⟩ := idx_4 t
  funext a; apply Fin.ext
  match a with
  | ⟨0, _⟩ => show win0_4.index t (0 : Fin 2) * 1024 + 1 * (y 0).val = t.val * 1024 + (y 0).val; omega
  | ⟨1, _⟩ => show win0_4.index t (1 : Fin 2) * 128 + 1 * (y 1).val = (y 1).val; omega
theorem emb_5 (t : Fin cfg0.N) (y : S1024x128.Idx) : ((cfg0.win 5).blk t).view.emb y = row t y := by
  obtain ⟨e0, e1⟩ := idx_5 t
  funext a; apply Fin.ext
  match a with
  | ⟨0, _⟩ => show win0_5.index t (0 : Fin 2) * 1024 + 1 * (y 0).val = t.val * 1024 + (y 0).val; omega
  | ⟨1, _⟩ => show win0_5.index t (1 : Fin 2) * 128 + 1 * (y 1).val = (y 1).val; omega
theorem emb_6 (t : Fin cfg0.N) (y : S1024x128.Idx) : ((cfg0.win 6).blk t).view.emb y = row t y := by
  obtain ⟨e0, e1⟩ := idx_6 t
  funext a; apply Fin.ext
  match a with
  | ⟨0, _⟩ => show win0_6.index t (0 : Fin 2) * 1024 + 1 * (y 0).val = t.val * 1024 + (y 0).val; omega
  | ⟨1, _⟩ => show win0_6.index t (1 : Fin 2) * 128 + 1 * (y 1).val = (y 1).val; omega
theorem emb_7 (t : Fin cfg0.N) (y : S1024x128.Idx) : ((cfg0.win 7).blk t).view.emb y = row t y := by
  obtain ⟨e0, e1⟩ := idx_7 t
  funext a; apply Fin.ext
  match a with
  | ⟨0, _⟩ => show win0_7.index t (0 : Fin 2) * 1024 + 1 * (y 0).val = t.val * 1024 + (y 0).val; omega
  | ⟨1, _⟩ => show win0_7.index t (1 : Fin 2) * 128 + 1 * (y 1).val = (y 1).val; omega
theorem emb_8 (t : Fin cfg0.N) (y : S1024x128.Idx) : ((cfg0.win 8).blk t).view.emb y = row t y := by
  obtain ⟨e0, e1⟩ := idx_8 t
  funext a; apply Fin.ext
  match a with
  | ⟨0, _⟩ => show win0_8.index t (0 : Fin 2) * 1024 + 1 * (y 0).val = t.val * 1024 + (y 0).val; omega
  | ⟨1, _⟩ => show win0_8.index t (1 : Fin 2) * 128 + 1 * (y 1).val = (y 1).val; omega
theorem emb_9 (t : Fin cfg0.N) (y : S1024x128.Idx) : ((cfg0.win 9).blk t).view.emb y = row t y := by
  obtain ⟨e0, e1⟩ := idx_9 t
  funext a; apply Fin.ext
  match a with
  | ⟨0, _⟩ => show win0_9.index t (0 : Fin 2) * 1024 + 1 * (y 0).val = t.val * 1024 + (y 0).val; omega
  | ⟨1, _⟩ => show win0_9.index t (1 : Fin 2) * 128 + 1 * (y 1).val = (y 1).val; omega
theorem emb_10 (t : Fin cfg0.N) (y : S1024x128.Idx) : ((cfg0.win 10).blk t).view.emb y = row t y := by
  obtain ⟨e0, e1⟩ := idx_10 t
  funext a; apply Fin.ext
  match a with
  | ⟨0, _⟩ => show win0_10.index t (0 : Fin 2) * 1024 + 1 * (y 0).val = t.val * 1024 + (y 0).val; omega
  | ⟨1, _⟩ => show win0_10.index t (1 : Fin 2) * 128 + 1 * (y 1).val = (y 1).val; omega
theorem emb_11 (t : Fin cfg0.N) (y : S1024x128.Idx) : ((cfg0.win 11).blk t).view.emb y = row t y := by
  obtain ⟨e0, e1⟩ := idx_11 t
  funext a; apply Fin.ext
  match a with
  | ⟨0, _⟩ => show win0_11.index t (0 : Fin 2) * 1024 + 1 * (y 0).val = t.val * 1024 + (y 0).val; omega
  | ⟨1, _⟩ => show win0_11.index t (1 : Fin 2) * 128 + 1 * (y 1).val = (y 1).val; omega
theorem emb_12 (t : Fin cfg0.N) (y : S1024x128.Idx) : ((cfg0.win 12).blk t).view.emb y = row t y := by
  obtain ⟨e0, e1⟩ := idx_12 t
  funext a; apply Fin.ext
  match a with
  | ⟨0, _⟩ => show win0_12.index t (0 : Fin 2) * 1024 + 1 * (y 0).val = t.val * 1024 + (y 0).val; omega
  | ⟨1, _⟩ => show win0_12.index t (1 : Fin 2) * 128 + 1 * (y 1).val = (y 1).val; omega
theorem emb_13 (t : Fin cfg0.N) (y : S1024x128.Idx) : ((cfg0.win 13).blk t).view.emb y = row t y := by
  obtain ⟨e0, e1⟩ := idx_13 t
  funext a; apply Fin.ext
  match a with
  | ⟨0, _⟩ => show win0_13.index t (0 : Fin 2) * 1024 + 1 * (y 0).val = t.val * 1024 + (y 0).val; omega
  | ⟨1, _⟩ => show win0_13.index t (1 : Fin 2) * 128 + 1 * (y 1).val = (y 1).val; omega
theorem emb_14 (t : Fin cfg0.N) (y : S1024x128.Idx) : ((cfg0.win 14).blk t).view.emb y = row t y := by
  obtain ⟨e0, e1⟩ := idx_14 t
  funext a; apply Fin.ext
  match a with
  | ⟨0, _⟩ => show win0_14.index t (0 : Fin 2) * 1024 + 1 * (y 0).val = t.val * 1024 + (y 0).val; omega
  | ⟨1, _⟩ => show win0_14.index t (1 : Fin 2) * 128 + 1 * (y 1).val = (y 1).val; omega
theorem emb_15 (t : Fin cfg0.N) (y : S1024x128.Idx) : ((cfg0.win 15).blk t).view.emb y = row t y := by
  obtain ⟨e0, e1⟩ := idx_15 t
  funext a; apply Fin.ext
  match a with
  | ⟨0, _⟩ => show win0_15.index t (0 : Fin 2) * 1024 + 1 * (y 0).val = t.val * 1024 + (y 0).val; omega
  | ⟨1, _⟩ => show win0_15.index t (1 : Fin 2) * 128 + 1 * (y 1).val = (y 1).val; omega
theorem emb_16 (t : Fin cfg0.N) (y : S1024x128.Idx) : ((cfg0.win 16).blk t).view.emb y = row t y := by
  obtain ⟨e0, e1⟩ := idx_16 t
  funext a; apply Fin.ext
  match a with
  | ⟨0, _⟩ => show win0_16.index t (0 : Fin 2) * 1024 + 1 * (y 0).val = t.val * 1024 + (y 0).val; omega
  | ⟨1, _⟩ => show win0_16.index t (1 : Fin 2) * 128 + 1 * (y 1).val = (y 1).val; omega

/-! ## An operand's block at a point is the operand array read at `row` -/

section
variable (m : (ℓ : Loc nD τ sig) → Buf (Elt F) ℓ)

theorem block_0 (c : Dev nD) (t : Fin cfg0.N) : iblk m c 0 t = fun y => V m c main_v0 (row t y) := by
  funext y; show V m c main_v0 (((cfg0.win 0).blk t).view.emb y) = _; rw [emb_0]
theorem block_1 (c : Dev nD) (t : Fin cfg0.N) : iblk m c 1 t = fun y => V m c main_v1 (row t y) := by
  funext y; show V m c main_v1 (((cfg0.win 1).blk t).view.emb y) = _; rw [emb_1]
theorem block_2 (c : Dev nD) (t : Fin cfg0.N) : iblk m c 2 t = fun y => V m c main_v2 (row t y) := by
  funext y; show V m c main_v2 (((cfg0.win 2).blk t).view.emb y) = _; rw [emb_2]
theorem block_3 (c : Dev nD) (t : Fin cfg0.N) : iblk m c 3 t = fun y => V m c main_v3 (row t y) := by
  funext y; show V m c main_v3 (((cfg0.win 3).blk t).view.emb y) = _; rw [emb_3]
theorem block_4 (c : Dev nD) (t : Fin cfg0.N) : iblk m c 4 t = fun y => V m c main_v4 (row t y) := by
  funext y; show V m c main_v4 (((cfg0.win 4).blk t).view.emb y) = _; rw [emb_4]
theorem block_5 (c : Dev nD) (t : Fin cfg0.N) : iblk m c 5 t = fun y => V m c main_v5 (row t y) := by
  funext y; show V m c main_v5 (((cfg0.win 5).blk t).view.emb y) = _; rw [emb_5]
theorem block_6 (c : Dev nD) (t : Fin cfg0.N) : iblk m c 6 t = fun y => V m c main_v6 (row t y) := by
  funext y; show V m c main_v6 (((cfg0.win 6).blk t).view.emb y) = _; rw [emb_6]
theorem block_7 (c : Dev nD) (t : Fin cfg0.N) : iblk m c 7 t = fun y => V m c main_v7 (row t y) := by
  funext y; show V m c main_v7 (((cfg0.win 7).blk t).view.emb y) = _; rw [emb_7]
theorem block_8 (c : Dev nD) (t : Fin cfg0.N) : iblk m c 8 t = fun y => V m c main_v8 (row t y) := by
  funext y; show V m c main_v8 (((cfg0.win 8).blk t).view.emb y) = _; rw [emb_8]
theorem block_9 (c : Dev nD) (t : Fin cfg0.N) : iblk m c 9 t = fun y => V m c main_v9 (row t y) := by
  funext y; show V m c main_v9 (((cfg0.win 9).blk t).view.emb y) = _; rw [emb_9]
theorem block_10 (c : Dev nD) (t : Fin cfg0.N) : iblk m c 10 t = fun y => V m c main_v10 (row t y) := by
  funext y; show V m c main_v10 (((cfg0.win 10).blk t).view.emb y) = _; rw [emb_10]

end

/-! ## A result window's block of any array is that array read at `row`, and the 32 blocks cover the array -/

theorem read_11 (t : Fin cfg0.N) (A : S32768x128.Idx → Elt F .f32) :
    ((cfg0.win 11).blk t).view.read (Elt F) A = fun y => A (row t y) := by
  funext y; show A (((cfg0.win 11).blk t).view.emb y) = _; rw [emb_11]
theorem read_12 (t : Fin cfg0.N) (A : S32768x128.Idx → Elt F .f32) :
    ((cfg0.win 12).blk t).view.read (Elt F) A = fun y => A (row t y) := by
  funext y; show A (((cfg0.win 12).blk t).view.emb y) = _; rw [emb_12]
theorem read_13 (t : Fin cfg0.N) (A : S32768x128.Idx → Elt F .f32) :
    ((cfg0.win 13).blk t).view.read (Elt F) A = fun y => A (row t y) := by
  funext y; show A (((cfg0.win 13).blk t).view.emb y) = _; rw [emb_13]
theorem read_14 (t : Fin cfg0.N) (A : S32768x128.Idx → Elt F .f32) :
    ((cfg0.win 14).blk t).view.read (Elt F) A = fun y => A (row t y) := by
  funext y; show A (((cfg0.win 14).blk t).view.emb y) = _; rw [emb_14]
theorem read_15 (t : Fin cfg0.N) (A : S32768x128.Idx → Elt F .f32) :
    ((cfg0.win 15).blk t).view.read (Elt F) A = fun y => A (row t y) := by
  funext y; show A (((cfg0.win 15).blk t).view.emb y) = _; rw [emb_15]
theorem read_16 (t : Fin cfg0.N) (A : S32768x128.Idx → Elt F .f32) :
    ((cfg0.win 16).blk t).view.read (Elt F) A = fun y => A (row t y) := by
  funext y; show A (((cfg0.win 16).blk t).view.emb y) = _; rw [emb_16]

theorem cover_11 (i : S32768x128.Idx) : ∃ t : Fin cfg0.N, (cfg0.win 11).flush t = true ∧ i ∈ ((cfg0.win 11).blk t).view.set := by
  obtain ⟨t, y, rfl⟩ := row_onto i
  exact ⟨t, flush0_11 t, by rw [← emb_11 t y]; exact ((cfg0.win 11).blk t).view.emb_mem_set y⟩
theorem cover_12 (i : S32768x128.Idx) : ∃ t : Fin cfg0.N, (cfg0.win 12).flush t = true ∧ i ∈ ((cfg0.win 12).blk t).view.set := by
  obtain ⟨t, y, rfl⟩ := row_onto i
  exact ⟨t, flush0_12 t, by rw [← emb_12 t y]; exact ((cfg0.win 12).blk t).view.emb_mem_set y⟩
theorem cover_13 (i : S32768x128.Idx) : ∃ t : Fin cfg0.N, (cfg0.win 13).flush t = true ∧ i ∈ ((cfg0.win 13).blk t).view.set := by
  obtain ⟨t, y, rfl⟩ := row_onto i
  exact ⟨t, flush0_13 t, by rw [← emb_13 t y]; exact ((cfg0.win 13).blk t).view.emb_mem_set y⟩
theorem cover_14 (i : S32768x128.Idx) : ∃ t : Fin cfg0.N, (cfg0.win 14).flush t = true ∧ i ∈ ((cfg0.win 14).blk t).view.set := by
  obtain ⟨t, y, rfl⟩ := row_onto i
  exact ⟨t, flush0_14 t, by rw [← emb_14 t y]; exact ((cfg0.win 14).blk t).view.emb_mem_set y⟩
theorem cover_15 (i : S32768x128.Idx) : ∃ t : Fin cfg0.N, (cfg0.win 15).flush t = true ∧ i ∈ ((cfg0.win 15).blk t).view.set := by
  obtain ⟨t, y, rfl⟩ := row_onto i
  exact ⟨t, flush0_15 t, by rw [← emb_15 t y]; exact ((cfg0.win 15).blk t).view.emb_mem_set y⟩
theorem cover_16 (i : S32768x128.Idx) : ∃ t : Fin cfg0.N, (cfg0.win 16).flush t = true ∧ i ∈ ((cfg0.win 16).blk t).view.set := by
  obtain ⟨t, y, rfl⟩ := row_onto i
  exact ⟨t, flush0_16 t, by rw [← emb_16 t y]; exact ((cfg0.win 16).blk t).view.emb_mem_set y⟩

end Cert.KernelIdeal.PK

end
-- ==== Proof.Arrays.lean ====
/-
  Each result array after the run.  Point t writes back, to every result window, the model's right-hand side of the
  operand blocks at t; an operand's block is the operand array read at rows 1024·t …, and so is a result window's block
  of any array; the formulas are entrywise, so what t writes back is block t of the formula applied to the WHOLE operand
  arrays.  The 32 blocks cover a result array, hence after the run the array is that formula of the operand arrays as
  the call finds them.
-/
import proofs.«135026_j5961414607271_1_alg».proof.Proof.Formulas
import proofs.«135026_j5961414607271_1_alg».proof.Proof.Rows

set_option maxRecDepth 16384

noncomputable section

namespace Cert.KernelIdeal.PK

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]

variable (m : (ℓ : Loc nD τ sig) → Buf (Elt F) ℓ)

theorem hz : (![0, 0] : Fin 2 → Nat) = fun _ => 0 := funext fun a => by fin_cases a <;> rfl

/-! ## What a point writes back -/

theorem wrote_depot (c : Dev nD) (t : Fin cfg0.N) :
    (dats m 0 c).flushed 11 t = ((cfg0.win 11).blk t).view.read (Elt F) (dDepot (V m c main_v6) (V m c main_v0)) := by
  show (cfg0.win 11).cut (grid0.coords t) ((dats m 0 c).after 11 t) = _
  rw [after0_11]
  unfold out0_11
  rw [View.canon_unit_zero hz]
  simp only [View.ld_unit_zero (S := S1024x128) hz]
  rw [stored_depot, block_6, block_0, read_11]
  rfl

theorem wrote_gut1 (c : Dev nD) (t : Fin cfg0.N) :
    (dats m 0 c).flushed 12 t
      = ((cfg0.win 12).blk t).view.read (Elt F) (dTransit (V m c main_v6) (V m c main_v0) (V m c main_v1)) := by
  show (cfg0.win 12).cut (grid0.coords t) ((dats m 0 c).after 12 t) = _
  rw [after0_12]
  unfold out0_12
  rw [View.canon_unit_zero hz]
  simp only [View.ld_unit_zero (S := S1024x128) hz]
  rw [stored_gut1, block_6, block_0, block_1, read_12]
  rfl

theorem wrote_gut2 (c : Dev nD) (t : Fin cfg0.N) :
    (dats m 0 c).flushed 13 t
      = ((cfg0.win 13).blk t).view.read (Elt F) (dTransit (V m c main_v6) (V m c main_v1) (V m c main_v2)) := by
  show (cfg0.win 13).cut (grid0.coords t) ((dats m 0 c).after 13 t) = _
  rw [after0_13]
  unfold out0_13
  rw [View.canon_unit_zero hz]
  simp only [View.ld_unit_zero (S := S1024x128) hz]
  rw [stored_gut2, block_6, block_1, block_2, read_13]
  rfl

theorem wrote_gut3 (c : Dev nD) (t : Fin cfg0.N) :
    (dats m 0 c).flushed 14 t
      = ((cfg0.win 14).blk t).view.read (Elt F) (dTransit (V m c main_v6) (V m c main_v2) (V m c main_v3)) := by
  show (cfg0.win 14).cut (grid0.coords t) ((dats m 0 c).after 14 t) = _
  rw [after0_14]
  unfold out0_14
  rw [View.canon_unit_zero hz]
  simp only [View.ld_unit_zero (S := S1024x128) hz]
  rw [stored_gut3, block_6, block_2, block_3, read_14]
  rfl

theorem wrote_central (c : Dev nD) (t : Fin cfg0.N) :
    (dats m 0 c).flushed 15 t
      = ((cfg0.win 15).blk t).view.read (Elt F) (dCentral (V m c main_v6) (V m c main_v3) (V m c main_v4) (V m c main_v5)
          (V m c main_v7) (V m c main_v8) (V m c main_v9) (V m c main_v10)) := by
  show (cfg0.win 15).cut (grid0.coords t) ((dats m 0 c).after 15 t) = _
  rw [after0_15]
  unfold out0_15
  rw [View.canon_unit_zero hz]
  simp only [View.ld_unit_zero (S := S1024x128) hz]
  rw [stored_central, block_6, block_3, block_4, block_5, block_7, block_8, block_9, block_10, read_15]
  rfl

theorem wrote_peripheral (c : Dev nD) (t : Fin cfg0.N) :
    (dats m 0 c).flushed 16 t
      = ((cfg0.win 16).blk t).view.read (Elt F) (dPeripheral (V m c main_v4) (V m c main_v5) (V m c main_v8) (V m c main_v9) (V m c main_v10)) := by
  show (cfg0.win 16).cut (grid0.coords t) ((dats m 0 c).after 16 t) = _
  rw [after0_16]
  unfold out0_16
  rw [View.canon_unit_zero hz]
  simp only [View.ld_unit_zero (S := S1024x128) hz]
  rw [stored_peripheral, block_4, block_5, block_8, block_9, block_10, read_16]
  rfl

/-! ## The result arrays after the run -/

theorem array_depot (c : Dev nD) : (dats m 0 c).arrAt 11 cfg0.N = dDepot (V m c main_v6) (V m c main_v0) :=
  (dats m 0 c).arrAt_eq_of_cover 11 _ (fun t _ => wrote_depot m c t) cover_11

theorem array_gut1 (c : Dev nD) : (dats m 0 c).arrAt 12 cfg0.N = dTransit (V m c main_v6) (V m c main_v0) (V m c main_v1) :=
  (dats m 0 c).arrAt_eq_of_cover 12 _ (fun t _ => wrote_gut1 m c t) cover_12

theorem array_gut2 (c : Dev nD) : (dats m 0 c).arrAt 13 cfg0.N = dTransit (V m c main_v6) (V m c main_v1) (V m c main_v2) :=
  (dats m 0 c).arrAt_eq_of_cover 13 _ (fun t _ => wrote_gut2 m c t) cover_13

theorem array_gut3 (c : Dev nD) : (dats m 0 c).arrAt 14 cfg0.N = dTransit (V m c main_v6) (V m c main_v2) (V m c main_v3) :=
  (dats m 0 c).arrAt_eq_of_cover 14 _ (fun t _ => wrote_gut3 m c t) cover_14

theorem array_central (c : Dev nD) :
    (dats m 0 c).arrAt 15 cfg0.N = dCentral (V m c main_v6) (V m c main_v3) (V m c main_v4) (V m c main_v5)
      (V m c main_v7) (V m c main_v8) (V m c main_v9) (V m c main_v10) :=
  (dats m 0 c).arrAt_eq_of_cover 15 _ (fun t _ => wrote_central m c t) cover_15

theorem array_peripheral (c : Dev nD) :
    (dats m 0 c).arrAt 16 cfg0.N = dPeripheral (V m c main_v4) (V m c main_v5) (V m c main_v8) (V m c main_v9) (V m c main_v10) :=
  (dats m 0 c).arrAt_eq_of_cover 16 _ (fun t _ => wrote_peripheral m c t) cover_16

end Cert.KernelIdeal.PK

end
-- ==== Proof.Host.lean ====
/-
  The host lines around the call.  Before it, each of the eleven flat [4194304] arguments is reshaped to [32768, 128]:
  the call finds, in operand J, argument J+1 in row-major order under the new shape.  After it, each of the six result
  arrays is reshaped back to [4194304]: a result of the program is the call's result array in row-major order under the
  flat shape.  (The first argument, the time t, is not read at all.)
-/
import proofs.«135026_j5961414607271_1_alg».proof.Proof.Gen.KernelIdeal.Frame
import Idealize.ShloMosaic.Lib.Pipeline.Value
import Idealize.ShloMosaic.Lib.StableHlo.Run

set_option maxRecDepth 16384

noncomputable section

namespace Cert.KernelIdeal.PK

open Cert.KernelIdeal Cert.KernelIdeal.Gen Idealize.ShloMosaic Idealize.ShloMosaic.TcCoe Idealize.SL.Sem
open Idealize.ShloMosaic.Pipeline (Dat)

variable {F : FTy → Type} [FloatOps F]

variable (m : (ℓ : Loc nD τ sig) → Buf (Elt F) ℓ)

/-! ## What the call finds in each operand -/

theorem entry_0 (c : Dev nD) :
    (V m c main_v0 : S32768x128.Idx → Elt F .f32)
      = shapeCast S32768x128 (m ((c : Thread nD τ).loc main_arg1)) shapeCasts_S4194304_S32768x128 := by
  show StableHlo.after hostOps0 (fun b => m (c, b)) (Proc.devRef .tc main_v0) = _
  after_results
  rfl
theorem entry_1 (c : Dev nD) :
    (V m c main_v1 : S32768x128.Idx → Elt F .f32)
      = shapeCast S32768x128 (m ((c : Thread nD τ).loc main_arg2)) shapeCasts_S4194304_S32768x128 := by
  show StableHlo.after hostOps0 (fun b => m (c, b)) (Proc.devRef .tc main_v1) = _
  after_results
  rfl
theorem entry_2 (c : Dev nD) :
    (V m c main_v2 : S32768x128.Idx → Elt F .f32)
      = shapeCast S32768x128 (m ((c : Thread nD τ).loc main_arg3)) shapeCasts_S4194304_S32768x128 := by
  show StableHlo.after hostOps0 (fun b => m (c, b)) (Proc.devRef .tc main_v2) = _
  after_results
  rfl
theorem entry_3 (c : Dev nD) :
    (V m c main_v3 : S32768x128.Idx → Elt F .f32)
      = shapeCast S32768x128 (m ((c : Thread nD τ).loc main_arg4)) shapeCasts_S4194304_S32768x128 := by
  show StableHlo.after hostOps0 (fun b => m (c, b)) (Proc.devRef .tc main_v3) = _
  after_results
  rfl
theorem entry_4 (c : Dev nD) :
    (V m c main_v4 : S32768x128.Idx → Elt F .f32)
      = shapeCast S32768x128 (m ((c : Thread nD τ).loc main_arg5)) shapeCasts_S4194304_S32768x128 := by
  show StableHlo.after hostOps0 (fun b => m (c, b)) (Proc.devRef .tc main_v4) = _
  after_results
  rfl
theorem entry_5 (c : Dev nD) :
    (V m c main_v5 : S32768x128.Idx → Elt F .f32)
      = shapeCast S32768x128 (m ((c : Thread nD τ).loc main_arg6)) shapeCasts_S4194304_S32768x128 := by
  show StableHlo.after hostOps0 (fun b => m (c, b)) (Proc.devRef .tc main_v5) = _
  after_results
  rfl
theorem entry_6 (c : Dev nD) :
    (V m c main_v6 : S32768x128.Idx → Elt F .f32)
      = shapeCast S32768x128 (m ((c : Thread nD τ).loc main_arg7)) shapeCasts_S4194304_S32768x128 := by
  show StableHlo.after hostOps0 (fun b => m (c, b)) (Proc.devRef .tc main_v6) = _
  after_results
  rfl
theorem entry_7 (c : Dev nD) :
    (V m c main_v7 : S32768x128.Idx → Elt F .f32)
      = shapeCast S32768x128 (m ((c : Thread nD τ).loc main_arg8)) shapeCasts_S4194304_S32768x128 := by
  show StableHlo.after hostOps0 (fun b => m (c, b)) (Proc.devRef .tc main_v7) = _
  after_results
  rfl
theorem entry_8 (c : Dev nD) :
    (V m c main_v8 : S32768x128.Idx → Elt F .f32)
      = shapeCast S32768x128 (m ((c : Thread nD τ).loc main_arg9)) shapeCasts_S4194304_S32768x128 := by
  show StableHlo.after hostOps0 (fun b => m (c, b)) (Proc.devRef .tc main_v8) = _
  after_results
  rfl
theorem entry_9 (c : Dev nD) :
    (V m c main_v9 : S32768x128.Idx → Elt F .f32)
      = shapeCast S32768x128 (m ((c : Thread nD τ).loc main_arg10)) shapeCasts_S4194304_S32768x128 := by
  show StableHlo.after hostOps0 (fun b => m (c, b)) (Proc.devRef .tc main_v9) = _
  after_results
  rfl
theorem entry_10 (c : Dev nD) :
    (V m c main_v10 : S32768x128.Idx → Elt F .f32)
      = shapeCast S32768x128 (m ((c : Thread nD τ).loc main_arg11)) shapeCasts_S4194304_S32768x128 := by
  show StableHlo.after hostOps0 (fun b => m (c, b)) (Proc.devRef .tc main_v10) = _
  after_results
  rfl

/-! ## What the program returns: each result array of the call, flattened -/

theorem tail_12 (c : Dev nD) :
    (Pipeline.afterTail₀ cfgs (dats m) 0 (V0 m) [hostOps1] c main_v12 : S4194304.Idx → Elt F .f32)
      = shapeCast S4194304 ((dats m 0 c).arrAt 11 cfg0.N) shapeCasts_S32768x128_S4194304 := by
  unfold Pipeline.afterTail₀
  show StableHlo.after hostOps1 _ (Proc.devRef .tc main_v12) = _
  after_results
  have e := Pipeline.withArrays_arr spec0 launch0.win.arr_inj c (V0 m c) (fun w => (dats m 0 c).arrAt w cfg0.N) 11
  exact congrArg (fun A => shapeCast S4194304 A shapeCasts_S32768x128_S4194304) e
theorem tail_13 (c : Dev nD) :
    (Pipeline.afterTail₀ cfgs (dats m) 0 (V0 m) [hostOps1] c main_v13 : S4194304.Idx → Elt F .f32)
      = shapeCast S4194304 ((dats m 0 c).arrAt 12 cfg0.N) shapeCasts_S32768x128_S4194304 := by
  unfold Pipeline.afterTail₀
  show StableHlo.after hostOps1 _ (Proc.devRef .tc main_v13) = _
  after_results
  have e := Pipeline.withArrays_arr spec0 launch0.win.arr_inj c (V0 m c) (fun w => (dats m 0 c).arrAt w cfg0.N) 12
  exact congrArg (fun A => shapeCast S4194304 A shapeCasts_S32768x128_S4194304) e
theorem tail_14 (c : Dev nD) :
    (Pipeline.afterTail₀ cfgs (dats m) 0 (V0 m) [hostOps1] c main_v14 : S4194304.Idx → Elt F .f32)
      = shapeCast S4194304 ((dats m 0 c).arrAt 13 cfg0.N) shapeCasts_S32768x128_S4194304 := by
  unfold Pipeline.afterTail₀
  show StableHlo.after hostOps1 _ (Proc.devRef .tc main_v14) = _
  after_results
  have e := Pipeline.withArrays_arr spec0 launch0.win.arr_inj c (V0 m c) (fun w => (dats m 0 c).arrAt w cfg0.N) 13
  exact congrArg (fun A => shapeCast S4194304 A shapeCasts_S32768x128_S4194304) e
theorem tail_15 (c : Dev nD) :
    (Pipeline.afterTail₀ cfgs (dats m) 0 (V0 m) [hostOps1] c main_v15 : S4194304.Idx → Elt F .f32)
      = shapeCast S4194304 ((dats m 0 c).arrAt 14 cfg0.N) shapeCasts_S32768x128_S4194304 := by
  unfold Pipeline.afterTail₀
  show StableHlo.after hostOps1 _ (Proc.devRef .tc main_v15) = _
  after_results
  have e := Pipeline.withArrays_arr spec0 launch0.win.arr_inj c (V0 m c) (fun w => (dats m 0 c).arrAt w cfg0.N) 14
  exact congrArg (fun A => shapeCast S4194304 A shapeCasts_S32768x128_S4194304) e
theorem tail_16 (c : Dev nD) :
    (Pipeline.afterTail₀ cfgs (dats m) 0 (V0 m) [hostOps1] c main_v16 : S4194304.Idx → Elt F .f32)
      = shapeCast S4194304 ((dats m 0 c).arrAt 15 cfg0.N) shapeCasts_S32768x128_S4194304 := by
  unfold Pipeline.afterTail₀
  show StableHlo.after hostOps1 _ (Proc.devRef .tc main_v16) = _
  after_results
  have e := Pipeline.withArrays_arr spec0 launch0.win.arr_inj c (V0 m c) (fun w => (dats m 0 c).arrAt w cfg0.N) 15
  exact congrArg (fun A => shapeCast S4194304 A shapeCasts_S32768x128_S4194304) e
theorem tail_17 (c : Dev nD) :
    (Pipeline.afterTail₀ cfgs (dats m) 0 (V0 m) [hostOps1] c main_v17 : S4194304.Idx → Elt F .f32)
      = shapeCast S4194304 ((dats m 0 c).arrAt 16 cfg0.N) shapeCasts_S32768x128_S4194304 := by
  unfold Pipeline.afterTail₀
  show StableHlo.after hostOps1 _ (Proc.devRef .tc main_v17) = _
  after_results
  have e := Pipeline.withArrays_arr spec0 launch0.win.arr_inj c (V0 m c) (fun w => (dats m 0 c).arrAt w cfg0.N) 16
  exact congrArg (fun A => shapeCast S4194304 A shapeCasts_S32768x128_S4194304) e

end Cert.KernelIdeal.PK

end
-- ==== Proof.KernelRun.lean ====
/-
  The program's six results as functions of its flat arguments.  A result is the call's result array flattened; that
  array is the model's right-hand side of the operand arrays; an operand array is a flat argument reshaped.  The
  right-hand sides are entrywise and the two reshapes are inverse bijections of the index sets (both keep the row-major
  position), so flattening the formula of the reshaped arguments gives the same formula of the flat arguments:

    result k (j) = rhs_k (argument values at j)        for every patient j < 4194304.

  Nothing here depends on what a float is: the statements hold for every reading of the float operations.
-/
import proofs.«135026_j5961414607271_1_alg».proof.Proof.Arrays
import proofs.«135026_j5961414607271_1_alg».proof.Proof.Host

set_option maxRecDepth 16384

noncomputable section

namespace Cert.KernelIdeal.PK

open Cert.KernelIdeal Cert.KernelIdeal.Gen Idealize.ShloMosaic Idealize.ShloMosaic.TcCoe Idealize.SL.Sem
open Idealize.ShloMosaic.Pipeline (Dat)

variable {F : FTy → Type} [FloatOps F]

variable (m : (ℓ : Loc nD τ sig) → Buf (Elt F) ℓ) (ρ : Dev nD → PrngReg)

/-! ## Reshaping to the call's layout and back -/

theorem there_and_back (a : S4194304.Idx → Elt F .f32) :
    shapeCast S4194304 (shapeCast S32768x128 a shapeCasts_S4194304_S32768x128) shapeCasts_S32768x128_S4194304 = a :=
  shapeCast_shapeCast a _ _

theorem flat_depot (ktr aDepot : S4194304.Idx → Elt F .f32) :
    shapeCast S4194304 (dDepot (shapeCast S32768x128 ktr shapeCasts_S4194304_S32768x128) (shapeCast S32768x128 aDepot shapeCasts_S4194304_S32768x128)) shapeCasts_S32768x128_S4194304 = dDepot ktr aDepot := by
  show dDepot (shapeCast S4194304 (shapeCast S32768x128 ktr shapeCasts_S4194304_S32768x128) shapeCasts_S32768x128_S4194304)
    (shapeCast S4194304 (shapeCast S32768x128 aDepot shapeCasts_S4194304_S32768x128) shapeCasts_S32768x128_S4194304) = _
  rw [there_and_back, there_and_back]

theorem flat_transit (ktr aPrev aThis : S4194304.Idx → Elt F .f32) :
    shapeCast S4194304 (dTransit (shapeCast S32768x128 ktr shapeCasts_S4194304_S32768x128) (shapeCast S32768x128 aPrev shapeCasts_S4194304_S32768x128) (shapeCast S32768x128 aThis shapeCasts_S4194304_S32768x128)) shapeCasts_S32768x128_S4194304
      = dTransit ktr aPrev aThis := by
  show dTransit (shapeCast S4194304 (shapeCast S32768x128 ktr shapeCasts_S4194304_S32768x128) shapeCasts_S32768x128_S4194304)
    (shapeCast S4194304 (shapeCast S32768x128 aPrev shapeCasts_S4194304_S32768x128) shapeCasts_S32768x128_S4194304)
    (shapeCast S4194304 (shapeCast S32768x128 aThis shapeCasts_S4194304_S32768x128) shapeCasts_S32768x128_S4194304) = _
  rw [there_and_back, there_and_back, there_and_back]

theorem flat_central (ktr aGut3 aCen aPer cl q vc vp : S4194304.Idx → Elt F .f32) :
    shapeCast S4194304 (dCentral (shapeCast S32768x128 ktr shapeCasts_S4194304_S32768x128) (shapeCast S32768x128 aGut3 shapeCasts_S4194304_S32768x128) (shapeCast S32768x128 aCen shapeCasts_S4194304_S32768x128) (shapeCast S32768x128 aPer shapeCasts_S4194304_S32768x128)
        (shapeCast S32768x128 cl shapeCasts_S4194304_S32768x128) (shapeCast S32768x128 q shapeCasts_S4194304_S32768x128) (shapeCast S32768x128 vc shapeCasts_S4194304_S32768x128) (shapeCast S32768x128 vp shapeCasts_S4194304_S32768x128)) shapeCasts_S32768x128_S4194304
      = dCentral ktr aGut3 aCen aPer cl q vc vp := by
  show dCentral (shapeCast S4194304 (shapeCast S32768x128 ktr shapeCasts_S4194304_S32768x128) shapeCasts_S32768x128_S4194304)
    (shapeCast S4194304 (shapeCast S32768x128 aGut3 shapeCasts_S4194304_S32768x128) shapeCasts_S32768x128_S4194304)
    (shapeCast S4194304 (shapeCast S32768x128 aCen shapeCasts_S4194304_S32768x128) shapeCasts_S32768x128_S4194304)
    (shapeCast S4194304 (shapeCast S32768x128 aPer shapeCasts_S4194304_S32768x128) shapeCasts_S32768x128_S4194304)
    (shapeCast S4194304 (shapeCast S32768x128 cl shapeCasts_S4194304_S32768x128) shapeCasts_S32768x128_S4194304)
    (shapeCast S4194304 (shapeCast S32768x128 q shapeCasts_S4194304_S32768x128) shapeCasts_S32768x128_S4194304)
    (shapeCast S4194304 (shapeCast S32768x128 vc shapeCasts_S4194304_S32768x128) shapeCasts_S32768x128_S4194304)
    (shapeCast S4194304 (shapeCast S32768x128 vp shapeCasts_S4194304_S32768x128) shapeCasts_S32768x128_S4194304) = _
  rw [there_and_back, there_and_back, there_and_back, there_and_back, there_and_back, there_and_back, there_and_back,
    there_and_back]

theorem flat_peripheral (aCen aPer q vc vp : S4194304.Idx → Elt F .f32) :
    shapeCast S4194304 (dPeripheral (shapeCast S32768x128 aCen shapeCasts_S4194304_S32768x128) (shapeCast S32768x128 aPer shapeCasts_S4194304_S32768x128) (shapeCast S32768x128 q shapeCasts_S4194304_S32768x128) (shapeCast S32768x128 vc shapeCasts_S4194304_S32768x128) (shapeCast S32768x128 vp shapeCasts_S4194304_S32768x128)) shapeCasts_S32768x128_S4194304
      = dPeripheral aCen aPer q vc vp := by
  show dPeripheral (shapeCast S4194304 (shapeCast S32768x128 aCen shapeCasts_S4194304_S32768x128) shapeCasts_S32768x128_S4194304)
    (shapeCast S4194304 (shapeCast S32768x128 aPer shapeCasts_S4194304_S32768x128) shapeCasts_S32768x128_S4194304)
    (shapeCast S4194304 (shapeCast S32768x128 q shapeCasts_S4194304_S32768x128) shapeCasts_S32768x128_S4194304)
    (shapeCast S4194304 (shapeCast S32768x128 vc shapeCasts_S4194304_S32768x128) shapeCasts_S32768x128_S4194304)
    (shapeCast S4194304 (shapeCast S32768x128 vp shapeCasts_S4194304_S32768x128) shapeCasts_S32768x128_S4194304) = _
  rw [there_and_back, there_and_back, there_and_back, there_and_back, there_and_back]

/-! ## The run's post, read result by result -/

/-- What the generated run of the program guarantees of a final state. -/
abbrev Post (r : PUnit × MemSt nD τ sig (Elt F)) : Prop :=
  Pipeline.FramePost cfgs (dats m) 0 (Pipeline.afterTail₀ cfgs (dats m) 0 (V0 m) [hostOps1]) r

theorem result_depot (r : PUnit × MemSt nD τ sig (Elt F)) (h : Post m r) (c : Dev nD) :
    r.2.mem ((c : Thread nD τ).loc main_v12) = dDepot (m ((c : Thread nD τ).loc main_arg7)) (m ((c : Thread nD τ).loc main_arg1)) :=
  ((h c).2 main_v12 (Pipeline.mem_restRefs_of main_v12 (by decide) (by decide))).trans (by
    rw [tail_12, array_depot, entry_6, entry_0]; exact flat_depot _ _)

theorem result_gut1 (r : PUnit × MemSt nD τ sig (Elt F)) (h : Post m r) (c : Dev nD) :
    r.2.mem ((c : Thread nD τ).loc main_v13) = dTransit (m ((c : Thread nD τ).loc main_arg7)) (m ((c : Thread nD τ).loc main_arg1)) (m ((c : Thread nD τ).loc main_arg2)) :=
  ((h c).2 main_v13 (Pipeline.mem_restRefs_of main_v13 (by decide) (by decide))).trans (by
    rw [tail_13, array_gut1, entry_6, entry_0, entry_1]; exact flat_transit _ _ _)

theorem result_gut2 (r : PUnit × MemSt nD τ sig (Elt F)) (h : Post m r) (c : Dev nD) :
    r.2.mem ((c : Thread nD τ).loc main_v14) = dTransit (m ((c : Thread nD τ).loc main_arg7)) (m ((c : Thread nD τ).loc main_arg2)) (m ((c : Thread nD τ).loc main_arg3)) :=
  ((h c).2 main_v14 (Pipeline.mem_restRefs_of main_v14 (by decide) (by decide))).trans (by
    rw [tail_14, array_gut2, entry_6, entry_1, entry_2]; exact flat_transit _ _ _)

theorem result_gut3 (r : PUnit × MemSt nD τ sig (Elt F)) (h : Post m r) (c : Dev nD) :
    r.2.mem ((c : Thread nD τ).loc main_v15) = dTransit (m ((c : Thread nD τ).loc main_arg7)) (m ((c : Thread nD τ).loc main_arg3)) (m ((c : Thread nD τ).loc main_arg4)) :=
  ((h c).2 main_v15 (Pipeline.mem_restRefs_of main_v15 (by decide) (by decide))).trans (by
    rw [tail_15, array_gut3, entry_6, entry_2, entry_3]; exact flat_transit _ _ _)

theorem result_central (r : PUnit × MemSt nD τ sig (Elt F)) (h : Post m r) (c : Dev nD) :
    r.2.mem ((c : Thread nD τ).loc main_v16)
      = dCentral (m ((c : Thread nD τ).loc main_arg7)) (m ((c : Thread nD τ).loc main_arg4)) (m ((c : Thread nD τ).loc main_arg5)) (m ((c : Thread nD τ).loc main_arg6)) (m ((c : Thread nD τ).loc main_arg8)) (m ((c : Thread nD τ).loc main_arg9)) (m ((c : Thread nD τ).loc main_arg10)) (m ((c : Thread nD τ).loc main_arg11)) :=
  ((h c).2 main_v16 (Pipeline.mem_restRefs_of main_v16 (by decide) (by decide))).trans (by
    rw [tail_16, array_central, entry_6, entry_3, entry_4, entry_5, entry_7, entry_8, entry_9, entry_10]
    exact flat_central _ _ _ _ _ _ _ _)

theorem result_peripheral (r : PUnit × MemSt nD τ sig (Elt F)) (h : Post m r) (c : Dev nD) :
    r.2.mem ((c : Thread nD τ).loc main_v17) = dPeripheral (m ((c : Thread nD τ).loc main_arg5)) (m ((c : Thread nD τ).loc main_arg6)) (m ((c : Thread nD τ).loc main_arg9)) (m ((c : Thread nD τ).loc main_arg10)) (m ((c : Thread nD τ).loc main_arg11)) :=
  ((h c).2 main_v17 (Pipeline.mem_restRefs_of main_v17 (by decide) (by decide))).trans (by
    rw [tail_17, array_peripheral, entry_4, entry_5, entry_8, entry_9, entry_10]; exact flat_peripheral _ _ _ _ _)

/-! ## The arguments end as launched (no window writes one back, no host line writes one) -/

theorem kept_0 (r : PUnit × MemSt nD τ sig (Elt F)) (h : Post m r) (c : Dev nD) :
    r.2.mem ((c : Thread nD τ).loc main_arg0) = m ((c : Thread nD τ).loc main_arg0) :=
  ((h c).2 main_arg0 (Pipeline.mem_restRefs_of main_arg0 (by decide) (by decide))).trans (W_main_arg0 m (dats m) c)
theorem kept_1 (r : PUnit × MemSt nD τ sig (Elt F)) (h : Post m r) (c : Dev nD) :
    r.2.mem ((c : Thread nD τ).loc main_arg1) = m ((c : Thread nD τ).loc main_arg1) :=
  ((h c).2 main_arg1 (Pipeline.mem_restRefs_of main_arg1 (by decide) (by decide))).trans (W_main_arg1 m (dats m) c)
theorem kept_2 (r : PUnit × MemSt nD τ sig (Elt F)) (h : Post m r) (c : Dev nD) :
    r.2.mem ((c : Thread nD τ).loc main_arg2) = m ((c : Thread nD τ).loc main_arg2) :=
  ((h c).2 main_arg2 (Pipeline.mem_restRefs_of main_arg2 (by decide) (by decide))).trans (W_main_arg2 m (dats m) c)
theorem kept_3 (r : PUnit × MemSt nD τ sig (Elt F)) (h : Post m r) (c : Dev nD) :
    r.2.mem ((c : Thread nD τ).loc main_arg3) = m ((c : Thread nD τ).loc main_arg3) :=
  ((h c).2 main_arg3 (Pipeline.mem_restRefs_of main_arg3 (by decide) (by decide))).trans (W_main_arg3 m (dats m) c)
theorem kept_4 (r : PUnit × MemSt nD τ sig (Elt F)) (h : Post m r) (c : Dev nD) :
    r.2.mem ((c : Thread nD τ).loc main_arg4) = m ((c : Thread nD τ).loc main_arg4) :=
  ((h c).2 main_arg4 (Pipeline.mem_restRefs_of main_arg4 (by decide) (by decide))).trans (W_main_arg4 m (dats m) c)
theorem kept_5 (r : PUnit × MemSt nD τ sig (Elt F)) (h : Post m r) (c : Dev nD) :
    r.2.mem ((c : Thread nD τ).loc main_arg5) = m ((c : Thread nD τ).loc main_arg5) :=
  ((h c).2 main_arg5 (Pipeline.mem_restRefs_of main_arg5 (by decide) (by decide))).trans (W_main_arg5 m (dats m) c)
theorem kept_6 (r : PUnit × MemSt nD τ sig (Elt F)) (h : Post m r) (c : Dev nD) :
    r.2.mem ((c : Thread nD τ).loc main_arg6) = m ((c : Thread nD τ).loc main_arg6) :=
  ((h c).2 main_arg6 (Pipeline.mem_restRefs_of main_arg6 (by decide) (by decide))).trans (W_main_arg6 m (dats m) c)
theorem kept_7 (r : PUnit × MemSt nD τ sig (Elt F)) (h : Post m r) (c : Dev nD) :
    r.2.mem ((c : Thread nD τ).loc main_arg7) = m ((c : Thread nD τ).loc main_arg7) :=
  ((h c).2 main_arg7 (Pipeline.mem_restRefs_of main_arg7 (by decide) (by decide))).trans (W_main_arg7 m (dats m) c)
theorem kept_8 (r : PUnit × MemSt nD τ sig (Elt F)) (h : Post m r) (c : Dev nD) :
    r.2.mem ((c : Thread nD τ).loc main_arg8) = m ((c : Thread nD τ).loc main_arg8) :=
  ((h c).2 main_arg8 (Pipeline.mem_restRefs_of main_arg8 (by decide) (by decide))).trans (W_main_arg8 m (dats m) c)
theorem kept_9 (r : PUnit × MemSt nD τ sig (Elt F)) (h : Post m r) (c : Dev nD) :
    r.2.mem ((c : Thread nD τ).loc main_arg9) = m ((c : Thread nD τ).loc main_arg9) :=
  ((h c).2 main_arg9 (Pipeline.mem_restRefs_of main_arg9 (by decide) (by decide))).trans (W_main_arg9 m (dats m) c)
theorem kept_10 (r : PUnit × MemSt nD τ sig (Elt F)) (h : Post m r) (c : Dev nD) :
    r.2.mem ((c : Thread nD τ).loc main_arg10) = m ((c : Thread nD τ).loc main_arg10) :=
  ((h c).2 main_arg10 (Pipeline.mem_restRefs_of main_arg10 (by decide) (by decide))).trans (W_main_arg10 m (dats m) c)
theorem kept_11 (r : PUnit × MemSt nD τ sig (Elt F)) (h : Post m r) (c : Dev nD) :
    r.2.mem ((c : Thread nD τ).loc main_arg11) = m ((c : Thread nD τ).loc main_arg11) :=
  ((h c).2 main_arg11 (Pipeline.mem_restRefs_of main_arg11 (by decide) (by decide))).trans (W_main_arg11 m (dats m) c)

/-! ## The run -/

/-- Every weakly fair execution of the program terminates with each result at the model's right-hand side of the
    arguments, patient by patient, and the arguments unchanged. -/
theorem run : θ_run defs (onTc (τ := τ) (main (F := F))) ⟨m, fun _ => 0, ρ⟩ fun r => ∀ c : Dev nD,
      r.2.mem ((c : Thread nD τ).loc main_v12) = dDepot (m ((c : Thread nD τ).loc main_arg7)) (m ((c : Thread nD τ).loc main_arg1))
      ∧ r.2.mem ((c : Thread nD τ).loc main_v13) = dTransit (m ((c : Thread nD τ).loc main_arg7)) (m ((c : Thread nD τ).loc main_arg1)) (m ((c : Thread nD τ).loc main_arg2))
      ∧ r.2.mem ((c : Thread nD τ).loc main_v14) = dTransit (m ((c : Thread nD τ).loc main_arg7)) (m ((c : Thread nD τ).loc main_arg2)) (m ((c : Thread nD τ).loc main_arg3))
      ∧ r.2.mem ((c : Thread nD τ).loc main_v15) = dTransit (m ((c : Thread nD τ).loc main_arg7)) (m ((c : Thread nD τ).loc main_arg3)) (m ((c : Thread nD τ).loc main_arg4))
      ∧ r.2.mem ((c : Thread nD τ).loc main_v16) = dCentral (m ((c : Thread nD τ).loc main_arg7)) (m ((c : Thread nD τ).loc main_arg4)) (m ((c : Thread nD τ).loc main_arg5)) (m ((c : Thread nD τ).loc main_arg6)) (m ((c : Thread nD τ).loc main_arg8)) (m ((c : Thread nD τ).loc main_arg9)) (m ((c : Thread nD τ).loc main_arg10)) (m ((c : Thread nD τ).loc main_arg11))
      ∧ r.2.mem ((c : Thread nD τ).loc main_v17) = dPeripheral (m ((c : Thread nD τ).loc main_arg5)) (m ((c : Thread nD τ).loc main_arg6)) (m ((c : Thread nD τ).loc main_arg9)) (m ((c : Thread nD τ).loc main_arg10)) (m ((c : Thread nD τ).loc main_arg11))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨result_depot m r h c, result_gut1 m r h c, result_gut2 m r h c, result_gut3 m r h c,
      result_central m r h c, result_peripheral m r h c,
      kept_0 m r h c, kept_1 m r h c, kept_2 m r h c, kept_3 m r h c, kept_4 m r h c, kept_5 m r h c,
      kept_6 m r h c, kept_7 m r h c, kept_8 m r h c, kept_9 m r h c, kept_10 m r h c, kept_11 m r h c⟩)
    (run_main m ρ)

end Cert.KernelIdeal.PK

end
-- ==== Proof.lean ====
/-
  The kernel computes the right-hand side of a six-compartment pharmacokinetic model (depot, three transit
  compartments, central, peripheral) for 4,194,304 patients at once, 1024×128 patients per grid point; the reference
  computes the same right-hand side with one whole-array operation per arithmetic step.  Patient by patient both are

    dA_depot   = −Ktr·A_depot
    dA_gut(k)  = Ktr·A_gut(k−1) − Ktr·A_gut(k)
    dA_central = Ktr·A_gut3 − (CL/Vc)·A_central − (Q/Vc)·A_central + (Q/Vp)·A_peripheral
    dA_periph  = (Q/Vc)·A_central − (Q/Vp)·A_peripheral

  with the same operations in the same order, except that the kernel writes −Ktr as 0 − Ktr.  Over the extended reals
  0 − x = −x for every x, infinite or not, so the claim needs no finiteness and the precondition is never opened; the
  kernel's and the host's division are one function there.  The tiling (32 blocks of 1024 rows) and the reshapes
  between the flat and the [32768, 128] layout only re-index: module KernelRun states the kernel program's results as
  these formulas of its flat arguments, the reference's run states its results as its operations' composite, and the
  two are compared entry by entry below.
-/
import proofs.«135026_j5961414607271_1_alg».proof.Defs
import proofs.«135026_j5961414607271_1_alg».proof.Proof.Gen.Kernel
import proofs.«135026_j5961414607271_1_alg».proof.Proof.Gen.Kernel.Skeleton
import proofs.«135026_j5961414607271_1_alg».proof.Proof.Gen.Kernel.Launch
import proofs.«135026_j5961414607271_1_alg».proof.Proof.Gen.Kernel.Points
import proofs.«135026_j5961414607271_1_alg».proof.Proof.Gen.Kernel.Frame
import proofs.«135026_j5961414607271_1_alg».proof.Proof.Gen.KernelIdeal
import proofs.«135026_j5961414607271_1_alg».proof.Proof.Gen.KernelIdeal.Skeleton
import proofs.«135026_j5961414607271_1_alg».proof.Proof.Gen.KernelIdeal.Launch
import proofs.«135026_j5961414607271_1_alg».proof.Proof.Gen.KernelIdeal.Points
import proofs.«135026_j5961414607271_1_alg».proof.Proof.Gen.KernelIdeal.Frame
import proofs.«135026_j5961414607271_1_alg».proof.Proof.Gen.ReferenceIdeal
import proofs.«135026_j5961414607271_1_alg».proof.Proof.Gen.Pre_finite_inputs
import proofs.«135026_j5961414607271_1_alg».proof.Proof.Gen.ReferenceIdeal.Run
import proofs.«135026_j5961414607271_1_alg».proof.Proof.KernelRun
import Idealize.ShloMosaic.PureOps.Ideal.Laws
import Idealize.ShloMosaic.Adequacy
import Idealize.ShloMosaic.Init

noncomputable section

namespace Cert.Proof

open Idealize.ShloMosaic Idealize.ShloMosaic.TcCoe Idealize.SL.Sem
open Cert.KernelIdeal.PK

/-! ## The reference's composites are the model's formulas -/

/-- The one place the two programs differ: the reference negates Ktr, the kernel subtracts it from zero; on the
    extended reals 0 − x = −x. -/
theorem depot_same (ktr aDepot : FVec Ideal Cert.KernelIdeal.S4194304 .f32) :
    (mulf (Host.negf ktr) aDepot : FVec Ideal Cert.KernelIdeal.S4194304 .f32) = dDepot (F := Ideal) ktr aDepot := by
  funext i
  simp only [dDepot, mulf, Host.negf, Ideal.mulf_def, Ideal.subf_def, Ideal.hostNegf_def, Ideal.negf_def,
    Ideal.ofBits_def, Ideal.ofBits_zero_f32, zero_sub]

/-- A transit compartment: the same two products and their difference, entry by entry. -/
theorem transit_same (ktr aPrev aThis : FVec Ideal Cert.KernelIdeal.S4194304 .f32) :
    (subf (mulf ktr aPrev) (mulf ktr aThis) : FVec Ideal Cert.KernelIdeal.S4194304 .f32) = dTransit (F := Ideal) ktr aPrev aThis := rfl

/-- The central compartment: the host's quotient and the kernel's are one function of extended reals. -/
theorem central_same (ktr aGut3 aCen aPer cl q vc vp : FVec Ideal Cert.KernelIdeal.S4194304 .f32) :
    (addf (subf (subf (mulf ktr aGut3) (mulf (Host.divf cl vc) aCen)) (mulf (Host.divf q vc) aCen)) (mulf (Host.divf q vp) aPer)
        : FVec Ideal Cert.KernelIdeal.S4194304 .f32)
      = dCentral (F := Ideal) ktr aGut3 aCen aPer cl q vc vp := rfl

/-- The peripheral compartment, likewise. -/
theorem peripheral_same (aCen aPer q vc vp : FVec Ideal Cert.KernelIdeal.S4194304 .f32) :
    (subf (mulf (Host.divf q vc) aCen) (mulf (Host.divf q vp) aPer) : FVec Ideal Cert.KernelIdeal.S4194304 .f32)
      = dPeripheral (F := Ideal) aCen aPer q vc vp := rfl

/-! ## The claims -/

theorem frame_kernel : Cert.frame_Kernel := fun m ρ _ => Cert.Kernel.Gen.frame m ρ
theorem frame_kernel_ideal : Cert.frame_KernelIdeal := fun m ρ _ => Cert.KernelIdeal.Gen.frame m ρ
/-- The reference has no kernel: its frame is its run with the six results dropped. -/
theorem frame_reference_ideal : Cert.frame_ReferenceIdeal := fun m ρ _ =>
  (θ_run Cert.ReferenceIdeal.defs _ _).mono (fun _ h c => (h c).2.2.2.2.2.2) (Cert.ReferenceIdeal.Value.run (F := Ideal) m ρ)

/-- From memories that agree on the twelve arguments both programs end with the six right-hand sides of the model
    at the kernel's arguments. -/
theorem algebraic : Cert.algebraic_KernelIdeal_ReferenceIdeal := by
  intro m ρ m' ρ' _ hagree
  refine ⟨_, _, _, _, _, _, Cert.KernelIdeal.PK.run (F := Ideal) m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10, a11⟩ := hagree c
  obtain ⟨h0, h1, h2, h3, h4, h5, k0, k1, k2, k3, k4, k5, k6, k7, k8, k9, k10, k11⟩ := h c
  refine ⟨h0.trans ?_, h1.trans ?_, h2.trans ?_, h3.trans ?_, h4.trans ?_, h5.trans ?_,
    k0, k1, k2, k3, k4, k5, k6, k7, k8, k9, k10, k11⟩
  · rw [a7, a1]; exact depot_same _ _
  · rw [a7, a1, a2]; exact transit_same _ _ _
  · rw [a7, a2, a3]; exact transit_same _ _ _
  · rw [a7, a3, a4]; exact transit_same _ _ _
  · rw [a7, a4, a5, a6, a8, a9, a10, a11]; exact central_same _ _ _ _ _ _ _ _
  · rw [a5, a6, a9, a10, a11]; exact peripheral_same _ _ _ _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
